-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S16384x128 .f32) (main_arg1 : FVec F S16384x16384 .f32) (main_arg2 : FVec F S128x128 .f32) (main_arg3 : FVec F S128x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S1024x4096 : Shape := ⟨2, ![1024, 4096]⟩
abbrev S1024x128 : Shape := ⟨2, ![1024, 128]⟩
abbrev S4096x128 : Shape := ⟨2, ![4096, 128]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128x128, .f32⟩
  | .hbm, ⟨4, _⟩ => ⟨S16384x128, .f32⟩
  | .local _ .vmem, ⟨0, _⟩ => ⟨S1024x4096, .f32⟩
  | .local _ .vmem, ⟨1, _⟩ => ⟨S1024x4096, .f32⟩
  | .local _ .vmem, ⟨2, _⟩ => ⟨S16384x128, .f32⟩
  | .local _ .vmem, ⟨3, _⟩ => ⟨S128x128, .f32⟩
  | .local _ .vmem, ⟨4, _⟩ => ⟨S128x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c4096_i32 : BitVec 32 := 4096#32
  let v4 : BitVec 32 := Scalar.muli arg1 c4096_i32
  v4
def k0_off1 (i : grid0.Coords) : Fin 2 → Nat :=
  let arg1 : BitVec 32 := BitVec.ofNat 32 (i 1).val
  let c4096_i32 : BitVec 32 := 4096#32
  let v4 : BitVec 32 := Scalar.muli arg1 c4096_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def k0_mult2 (i : grid0.Coords) : BitVec 32 :=
  let arg0 : BitVec 32 := BitVec.ofNat 32 (i 0).val
  let c1024_i32 : BitVec 32 := 1024#32
  let v31 : BitVec 32 := Scalar.muli arg0 c1024_i32
  v31
def k0_off2 (i : grid0.Coords) : Fin 2 → Nat :=
  let arg0 : BitVec 32 := BitVec.ofNat 32 (i 0).val
  let c1024_i32 : BitVec 32 := 1024#32
  let v31 : BitVec 32 := Scalar.muli arg0 c1024_i32
  let v32 : BitVec 32 := v31
  let v33 : Index := Scalar.indexCast v32
  let c0_18 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x4096_S1024x4096_0_0 : ∀ a, (![0, 0] : Fin 2 → Nat) a + S1024x4096.size a ≤ S1024x4096.size a
  h_S1024x4096 : 0 < S1024x4096.numel
  h_S4096x128 : 0 < S4096x128.numel
  reduces_S1024x4096_S1024 : S1024x4096.Reduces [1] S1024
  shapeCasts_S1024_S1024x1 : S1024.ShapeCasts S1024x1
  shapeCasts_S1024x1_S1024x1 : S1024x1.ShapeCasts S1024x1
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S4096x128.size a ≤ S16384x128.size a
  k0_mult2_dvd : ∀ i : grid0.Coords, ∀ (k0_h2 : k0_cond2 i = 1#1), 1024 ∣ (k0_mult2 i).toNat
  k0_off2_inb : ∀ i : grid0.Coords, ∀ (k0_h2 : k0_cond2 i = 1#1), ∀ a, (k0_off2 i) a + S1024x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x16384.size a
  hwx0_0 : ∀ i : grid0.Coords, EltTy.bits .f32 = 32 ∨ (Rect.block (s := S16384x16384) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)

variable [Facts₀]

def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S_ : Shape := ⟨0, ![]⟩
abbrev S16384 : Shape := ⟨1, ![16384]⟩
abbrev S16384x1 : Shape := ⟨2, ![16384, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.Spec.lean ====
/-
  The layer's result as one function of its four argument arrays, index by index, on the extended reals.

  For a node `r` (a row of the adjacency matrix `adj`, 16384 × 16384) and a feature `e` (a column of the
  node features `h`, 16384 × 128):
    * `deg adj r`       = ∑ⱼ adj[r, j]                      the row's weighted degree;
    * `agg h adj r e`   = ∑ⱼ adj[r, j] · h[j, e]            the neighbours' features, summed;
    * `mean h adj r e`  = agg h adj r e / max (deg adj r) 1  their mean, the degree clamped below at one;
  and the result at (r, d) is  ∑ₑ h[r, e] · Wself[e, d]  +  ∑ₑ mean h adj r e · Wneigh[e, d].
  This module imports no program.
-/
import Idealize.ShloMosaic.PureOps.Ideal
import Idealize.ShloMosaic.Lib.ValueIdx

noncomputable section

namespace Cert.Spec

open Idealize.ShloMosaic Idealize.ShloMosaic.ValueIdx

/-- Node features, and the result: 16384 nodes × 128 features. -/
abbrev SH : Shape := ⟨2, ![16384, 128]⟩
/-- The adjacency matrix: 16384 × 16384. -/
abbrev SA : Shape := ⟨2, ![16384, 16384]⟩
/-- A weight matrix: 128 × 128. -/
abbrev SW : Shape := ⟨2, ![128, 128]⟩

/-- The float word of 1.0, read as an extended real (the same word on both sides: never evaluated). -/
def one : EReal := Ideal.ofBits .f32 0x3F800000#32

/-- The weighted degree of node `r`: the sum of row `r` of the adjacency matrix. -/
def deg (adj : SA.Idx → EReal) (r : Fin 16384) : EReal :=
  ∑ j : Fin 16384, adj (ix2 r j)

/-- Feature `e` summed over the neighbours of node `r`, each weighted by its edge: entry (r, e) of adj · h. -/
def agg (h : SH.Idx → EReal) (adj : SA.Idx → EReal) (r : Fin 16384) (e : Fin 128) : EReal :=
  ∑ j : Fin 16384, adj (ix2 r j) * h (ix2 j e)

/-- The neighbours' mean feature: the weighted sum over the degree clamped below at one. -/
def mean (h : SH.Idx → EReal) (adj : SA.Idx → EReal) (r : Fin 16384) (e : Fin 128) : EReal :=
  Ideal.div (agg h adj r e) (max (deg adj r) one)

/-- The layer: the node's own features through `Wself` plus its neighbours' mean features through `Wneigh`. -/
def G (h : SH.Idx → EReal) (adj : SA.Idx → EReal) (Wself Wneigh : SW.Idx → EReal) : SH.Idx → EReal :=
  fun i => (∑ e : Fin 128, h (ix2 (i 0) e) * Wself (ix2 e (i 1)))
    + ∑ e : Fin 128, mean h adj (i 0) e * Wneigh (ix2 e (i 1))

end Cert.Spec

end
-- ==== Proof.RefIsSpec.lean ====
/-
  The reference's result, read one operation at a time, is the specification's layer `Cert.Spec.G`, index by
  index, on the extended reals.

  The reference computes, for a node `r`, a feature `e` and an output column `d`:
    * the row sums of the adjacency matrix, each started from the constant zero:   0 + ∑ⱼ adj[r, j];
    * that column of row sums clamped below at one, the constant written first:    max 1 (0 + ∑ⱼ adj[r, j]);
    * the product adj · h:                                                         ∑ⱼ adj[r, j] · h[j, e];
    * their quotient, entry by entry, the clamped row sum spread along the features;
    * the two projections  h · Wself  and  (that quotient) · Wneigh,  and their sum.
  The specification names the same quantities `deg`, `agg`, `mean` and `G`, with the degree's sum not started
  from anything and the clamp written `max (deg adj r) 1`. So beyond matching each stage's indices with the
  coordinates (r, j), (j, e), (e, d) only two laws are used: zero is neutral for addition (the sum's initial
  value disappears), and `max` is commutative (the clamp's operands change places). The constant one is the
  same float word on both sides and is never evaluated.
-/
import proofs.«140261_j72773925863488_2_alg».proof.Proof.Gen.ReferenceIdeal.Read
import proofs.«140261_j72773925863488_2_alg».proof.Proof.Spec

noncomputable section

namespace Cert.RefValue

open Idealize.ShloMosaic Idealize.ShloMosaic.ValueIdx Cert.ReferenceIdeal Cert.ReferenceIdeal.Read

/-! ## Each stage's indices, by coordinates

Every stage reads its operands at an index built coordinate by coordinate from the result's index. Each
equation below says which entry that is: both sides are functions of the axis, equal on each axis. -/

/-- The row sum of node `r` reads the adjacency matrix at (r, j). -/
private theorem idx_v0 (r j : Fin 16384) : idx_main_v0 (ix1 r) j = ix2 r j :=
  funext fun a => Fin.ext (by match a with | ⟨0, _⟩ => rfl | ⟨1, _⟩ => rfl)

/-- The column of row sums, 16384 × 1, reads the row sums at r. -/
private theorem idx_v1 (r : Fin 16384) : idx_main_v1 (ix2 r (0 : Fin 1)) = ix1 r :=
  funext fun a => Fin.ext (by match a with | ⟨0, _⟩ => rfl)

/-- Spread along the 128 features, entry (r, e) reads the clamped column at (r, 0). -/
private theorem idx_v4 (r : Fin 16384) (e : Fin 128) : idx_main_v4 (ix2 r e) = ix2 r (0 : Fin 1) :=
  funext fun a => Fin.ext (by match a with | ⟨0, _⟩ => rfl | ⟨1, _⟩ => rfl)

/-- Entry (r, e) of adj · h multiplies adj[r, j] … -/
private theorem lidx_v3 (r : Fin 16384) (e : Fin 128) (j : Fin 16384) : lidx_main_v3 (ix2 r e) j = ix2 r j :=
  funext fun a => Fin.ext (by match a with | ⟨0, _⟩ => rfl | ⟨1, _⟩ => rfl)

/-- … by h[j, e]. -/
private theorem ridx_v3 (r : Fin 16384) (e : Fin 128) (j : Fin 16384) : ridx_main_v3 (ix2 r e) j = ix2 j e :=
  funext fun a => Fin.ext (by match a with | ⟨0, _⟩ => rfl | ⟨1, _⟩ => rfl)

/-- Entry (r, d) of h · Wself multiplies h[r, e] … -/
private theorem lidx_v6 (r : Fin 16384) (d e : Fin 128) : lidx_main_v6 (ix2 r d) e = ix2 r e :=
  funext fun a => Fin.ext (by match a with | ⟨0, _⟩ => rfl | ⟨1, _⟩ => rfl)

/-- … by Wself[e, d]. -/
private theorem ridx_v6 (r : Fin 16384) (d e : Fin 128) : ridx_main_v6 (ix2 r d) e = ix2 e d :=
  funext fun a => Fin.ext (by match a with | ⟨0, _⟩ => rfl | ⟨1, _⟩ => rfl)

/-- Entry (r, d) of (the quotient) · Wneigh multiplies the quotient at (r, e) … -/
private theorem lidx_v7 (r : Fin 16384) (d e : Fin 128) : lidx_main_v7 (ix2 r d) e = ix2 r e :=
  funext fun a => Fin.ext (by match a with | ⟨0, _⟩ => rfl | ⟨1, _⟩ => rfl)

/-- … by Wneigh[e, d]. -/
private theorem ridx_v7 (r : Fin 16384) (d e : Fin 128) : ridx_main_v7 (ix2 r d) e = ix2 e d :=
  funext fun a => Fin.ext (by match a with | ⟨0, _⟩ => rfl | ⟨1, _⟩ => rfl)

/-! ## The stages are the specification's quantities -/

/-- The row sum is the degree: 0 + ∑ⱼ adj[r, j] = ∑ⱼ adj[r, j], the initial value being the real zero and zero
    neutral for addition. -/
theorem rowsum_eq_deg (x1 : (⟨S16384x16384, .f32⟩ : BufTy).Contents (Elt Ideal)) (r : Fin 16384) :
    val_main_v0 (F := Ideal) x1 (ix1 r) = Cert.Spec.deg x1 r := by
  rw [val_main_v0_apply, val_main_cst_apply, Ideal.ofBits_def, Ideal.ofBits_zero_f32, zero_add]
  unfold Cert.Spec.deg
  exact Finset.sum_congr rfl fun j _ => congrArg x1 (idx_v0 r j)

/-- The clamped row sum, spread along the features, is the degree clamped below at one: at every (r, e) the
    reference holds max 1 (deg adj r), the specification max (deg adj r) 1, and `max` is commutative. -/
theorem clamp_eq (x1 : (⟨S16384x16384, .f32⟩ : BufTy).Contents (Elt Ideal)) (r : Fin 16384) (e : Fin 128) :
    val_main_v4 (F := Ideal) x1 (ix2 r e) = max (Cert.Spec.deg x1 r) Cert.Spec.one := by
  rw [val_main_v4_apply, idx_v4 r e, val_main_v2_apply, val_main_call0_v1_apply, val_main_call0_v0_apply,
    val_main_cst_0_apply, val_main_v1_apply, idx_v1 r, rowsum_eq_deg, Ideal.maximumf_def, Ideal.ofBits_def]
  exact max_comm _ _

/-- The product adj · h is the neighbours' sum: entry (r, e) is ∑ⱼ adj[r, j] · h[j, e]. -/
theorem matmul_eq_agg (x0 : (⟨S16384x128, .f32⟩ : BufTy).Contents (Elt Ideal))
    (x1 : (⟨S16384x16384, .f32⟩ : BufTy).Contents (Elt Ideal)) (r : Fin 16384) (e : Fin 128) :
    val_main_v3 (F := Ideal) x0 x1 (ix2 r e) = Cert.Spec.agg x0 x1 r e := by
  rw [val_main_v3_apply]
  unfold Cert.Spec.agg
  refine Finset.sum_congr rfl fun j _ => ?_
  rw [lidx_v3 r e j, ridx_v3 r e j]

/-- Their quotient is the neighbours' mean: the neighbours' sum over the clamped degree, by the two stages above
    (the reference's division is the extended reals' `Ideal.div`, the specification's own). -/
theorem quotient_eq_mean (x0 : (⟨S16384x128, .f32⟩ : BufTy).Contents (Elt Ideal))
    (x1 : (⟨S16384x16384, .f32⟩ : BufTy).Contents (Elt Ideal)) (r : Fin 16384) (e : Fin 128) :
    val_main_v5 (F := Ideal) x0 x1 (ix2 r e) = Cert.Spec.mean x0 x1 r e := by
  rw [val_main_v5_apply, Ideal.hostDivf_def, matmul_eq_agg, clamp_eq]
  rfl

/-! ## The result -/

/-- The reference's result is the layer. Every index of the result is a pair of coordinates (r, d), and there both
    sides are ∑ₑ h[r, e] · Wself[e, d] + ∑ₑ mean[r, e] · Wneigh[e, d]: the two projections agree summand by summand. -/
theorem ref_eq_G
    (x0 : (⟨Cert.ReferenceIdeal.S16384x128, .f32⟩ : BufTy).Contents (Elt Ideal))
    (x1 : (⟨Cert.ReferenceIdeal.S16384x16384, .f32⟩ : BufTy).Contents (Elt Ideal))
    (x2 x3 : (⟨Cert.ReferenceIdeal.S128x128, .f32⟩ : BufTy).Contents (Elt Ideal)) :
    Cert.ReferenceIdeal.Read.val_main_v8 (F := Ideal) x0 x1 x2 x3 = Cert.Spec.G x0 x1 x2 x3 := by
  funext i
  obtain ⟨r, d, rfl⟩ : ∃ (r : Fin 16384) (d : Fin 128), i = ix2 r d := ⟨i 0, i 1, eq_ix2 i⟩
  rw [val_main_v8_apply, Ideal.addf_def, val_main_v6_apply, val_main_v7_apply]
  show _ = (∑ e : Fin 128, x0 (ix2 r e) * x2 (ix2 e d)) + ∑ e : Fin 128, Cert.Spec.mean x0 x1 r e * x3 (ix2 e d)
  refine congrArg₂ (· + ·) (Finset.sum_congr rfl fun e _ => ?_) (Finset.sum_congr rfl fun e _ => ?_)
  · -- the node's own features through Wself
    rw [lidx_v6 r d e, ridx_v6 r d e]
  · -- the neighbours' mean features through Wneigh
    rw [lidx_v7 r d e, ridx_v7 r d e, quotient_eq_mean]

end Cert.RefValue

end
-- ==== Proof.Pieces.lean ====
/-
  What one run of the kernel body leaves behind, as values.

  The body runs once per grid point (i, k): row tile i of the adjacency matrix (1024 rows), column tile k
  (4096 columns). It keeps two accumulators between points, each 1024 × 128:
    * the neighbour sum  accH[p, e] = ∑ over the columns seen so far of adj[row, col] · h[col, e];
    * the degree         accD[p, e] = ∑ over the columns seen so far of adj[row, col]   (the same in every lane e).
  Which of its conditional parts run depends on k only, so there are three cases:
    * A (k = 0):  both accumulators are reset to zero, then this tile is added;
    * B (k = 1, 2): this tile is added to what the point before left;
    * C (k = 3):  this tile is added, and the result block is written from the finished accumulators:
                  (own rows of h) · Wself + (accH / max(accD, 1)) · Wneigh.
  Every store of the body covers its whole buffer, so what a buffer holds afterwards is the payload of the
  last store into it, and a load after a covering store reads that store's payload. The lemmas below say
  exactly this for each buffer in each case, in terms of the body's named payloads (the reset, the two
  accumulations, the finalisation) applied to the input blocks `x0 … x3` and to what the accumulators held
  (`xs0`, `xs1`). They hold for any float semantics; nothing is computed here.
-/
import proofs.«140261_j72773925863488_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- The zero offsets, however they are spelt. -/
theorem hz : (![0, 0] : Fin 2 → Nat) = fun _ => 0 := funext fun a => by fin_cases a <;> rfl

/-- The 4096 rows of the resident feature array that face this point's column tile of the adjacency matrix. -/
abbrev hTile (i : grid0.Coords) (x1 : Vec F S16384x128 .f32) : Vec F S4096x128 .f32 :=
  View.ld x1 (Rect.unit (s := S16384x128) (k0_off1 i) S4096x128.size (k0_off1_inb i))

/-- The 1024 rows of the resident feature array that are this point's own nodes (read at the last column tile only). -/
abbrev hSelf (i : grid0.Coords) (hc1 : cond0_1 i) (x1 : Vec F S16384x128 .f32) : Vec F S1024x128 .f32 :=
  View.ld x1 (Rect.unit (s := S16384x128) (k0_off2 i) S1024x128.size (k0_off2_inb i hc1))

/-- Case A (the first column tile): the neighbour-sum accumulator is reset and then holds the reset value
    plus this tile's partial product: the accumulation reads back the zero block the reset has just stored. -/
theorem accH_A (c : Dev nD) (i : grid0.Coords) (arg2 : Memref sig .tc .vmem S1024x4096 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (hc0 : cond0_0 i) (hc1 : ¬cond0_1 i) (x0 : Vec F S1024x4096 .f32) (x1 : Vec F S16384x128 .f32) (x2 : Vec F S128x128 .f32) (x3 : Vec F S128x128 .f32) :
    sout0_A_0 c i arg2 harg2 arg3 harg3 arg4 harg4 arg5 harg5 arg6 harg6 arg7 harg7 arg8 harg8 hc0 hc1 x0 x1 x2 x3 = k0_pay3 x0 (hTile i x1) k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x128) hz, View.readCov_unit_zero (S := S1024x128) _ hz]
  simp only [View.readAt_eq_ld, harg2.read_unread, harg3.read_unread,
    View.ld_unit_zero (S := S1024x4096) hz]
  rfl

/-- Case A: the degree accumulator is reset and then holds the reset value plus this tile's row sums. -/
theorem accD_A (c : Dev nD) (i : grid0.Coords) (arg2 : Memref sig .tc .vmem S1024x4096 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (hc0 : cond0_0 i) (hc1 : ¬cond0_1 i) (x0 : Vec F S1024x4096 .f32) (x1 : Vec F S16384x128 .f32) (x2 : Vec F S128x128 .f32) (x3 : Vec F S128x128 .f32) :
    sout0_A_1 c i arg2 harg2 arg3 harg3 arg4 harg4 arg5 harg5 arg6 harg6 arg7 harg7 arg8 harg8 hc0 hc1 x0 x1 x2 x3 = k0_pay4 x0 k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x128) hz, View.readCov_unit_zero (S := S1024x128) _ hz]
  simp only [View.readAt_eq_ld, harg2.read_unread, View.ld_unit_zero (S := S1024x4096) hz]

/-- Case B: the neighbour-sum accumulator ends at what it held plus this tile's partial product. -/
theorem accH_B (c : Dev nD) (i : grid0.Coords) (arg2 : Memref sig .tc .vmem S1024x4096 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (hc0 : ¬cond0_0 i) (hc1 : ¬cond0_1 i) (x0 : Vec F S1024x4096 .f32) (x1 : Vec F S16384x128 .f32) (x2 : Vec F S128x128 .f32) (x3 : Vec F S128x128 .f32) (xs0 : Vec F S1024x128 .f32) (xs1 : Vec F S1024x128 .f32) :
    sout0_B_0 c i arg2 harg2 arg3 harg3 arg4 harg4 arg5 harg5 arg6 harg6 arg7 harg7 arg8 harg8 hc0 hc1 x0 x1 x2 x3 xs0 xs1 = k0_pay3 x0 (hTile i x1) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg7.read_unread,
    View.ld_unit_zero (S := S1024x4096) hz, View.ld_unit_zero (S := S1024x128) hz]
  rfl

/-- Case B: the degree accumulator ends at what it held plus this tile's row sums. -/
theorem accD_B (c : Dev nD) (i : grid0.Coords) (arg2 : Memref sig .tc .vmem S1024x4096 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (hc0 : ¬cond0_0 i) (hc1 : ¬cond0_1 i) (x0 : Vec F S1024x4096 .f32) (x1 : Vec F S16384x128 .f32) (x2 : Vec F S128x128 .f32) (x3 : Vec F S128x128 .f32) (xs0 : Vec F S1024x128 .f32) (xs1 : Vec F S1024x128 .f32) :
    sout0_B_1 c i arg2 harg2 arg3 harg3 arg4 harg4 arg5 harg5 arg6 harg6 arg7 harg7 arg8 harg8 hc0 hc1 x0 x1 x2 x3 xs0 xs1 = k0_pay4 x0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg8.read_unread,
    View.ld_unit_zero (S := S1024x4096) hz, View.ld_unit_zero (S := S1024x128) hz]

/-- Case C: the neighbour-sum accumulator ends at what it held plus this tile's partial product. -/
theorem accH_C (c : Dev nD) (i : grid0.Coords) (arg2 : Memref sig .tc .vmem S1024x4096 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (hc0 : ¬cond0_0 i) (hc1 : cond0_1 i) (x0 : Vec F S1024x4096 .f32) (x1 : Vec F S16384x128 .f32) (x2 : Vec F S128x128 .f32) (x3 : Vec F S128x128 .f32) (xs0 : Vec F S1024x128 .f32) (xs1 : Vec F S1024x128 .f32) :
    sout0_C_0 c i arg2 harg2 arg3 harg3 arg4 harg4 arg5 harg5 arg6 harg6 arg7 harg7 arg8 harg8 hc0 hc1 x0 x1 x2 x3 xs0 xs1 = k0_pay3 x0 (hTile i x1) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg7.read_unread,
    View.ld_unit_zero (S := S1024x4096) hz, View.ld_unit_zero (S := S1024x128) hz]
  rfl

/-- Case C: the degree accumulator ends at what it held plus this tile's row sums. -/
theorem accD_C (c : Dev nD) (i : grid0.Coords) (arg2 : Memref sig .tc .vmem S1024x4096 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (hc0 : ¬cond0_0 i) (hc1 : cond0_1 i) (x0 : Vec F S1024x4096 .f32) (x1 : Vec F S16384x128 .f32) (x2 : Vec F S128x128 .f32) (x3 : Vec F S128x128 .f32) (xs0 : Vec F S1024x128 .f32) (xs1 : Vec F S1024x128 .f32) :
    sout0_C_1 c i arg2 harg2 arg3 harg3 arg4 harg4 arg5 harg5 arg6 harg6 arg7 harg7 arg8 harg8 hc0 hc1 x0 x1 x2 x3 xs0 xs1 = k0_pay4 x0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg8.read_unread,
    View.ld_unit_zero (S := S1024x4096) hz, View.ld_unit_zero (S := S1024x128) hz]

/-- Case C: the output block is the finalisation of the two accumulators as this point has just left them. -/
theorem out_C (c : Dev nD) (i : grid0.Coords) (arg2 : Memref sig .tc .vmem S1024x4096 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (hc0 : ¬cond0_0 i) (hc1 : cond0_1 i) (x0 : Vec F S1024x4096 .f32) (x1 : Vec F S16384x128 .f32) (x2 : Vec F S128x128 .f32) (x3 : Vec F S128x128 .f32) (xs0 : Vec F S1024x128 .f32) (xs1 : Vec F S1024x128 .f32) :
    out0_C_4 c i arg2 harg2 arg3 harg3 arg4 harg4 arg5 harg5 arg6 harg6 arg7 harg7 arg8 harg8 hc0 hc1 x0 x1 x2 x3 xs0 xs1
      = k0_pay5 (k0_pay4 x0 xs1) (k0_pay3 x0 (hTile i x1) xs0) (hSelf i hc1 x1) x2 x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz, View.readCov_unit_zero (S := S1024x128) _ hz, View.readCov_unit_zero (S := S1024x128) _ hz]
  simp only [View.readAt_eq_ld, harg2.read_unread, harg3.read_unread, harg4.read_unread, harg5.read_unread,
    harg7.read_unread, harg8.read_unread,
    View.ld_unit_zero (S := S1024x4096) hz, View.ld_unit_zero (S := S1024x128) hz, View.ld_unit_zero (S := S128x128) hz]
  rfl

end Cert.KernelIdeal.Pieces

end
-- ==== Proof.Tiles.lean ====
/-
  Sums accumulated one tile of columns at a time.

  The kernel walks each row of the adjacency matrix in four tiles of 4096 columns and adds each tile's
  contribution to a running total. To speak of "the first n columns" without carrying a proof that n is in
  range, the two arrays are read at NATURAL coordinates, zero outside the array:
    * `adjN adj r j`  = adj[r, j]  for r, j < 16384, else 0;
    * `hN h j e`      = h[j, e]    for j < 16384, e < 128, else 0.
  The running totals are then sums over `range n`:
    * `partH h adj r e n` = ∑_{x < n} adj[r, x] · h[x, e]   (the neighbour sum over the first n columns),
    * `partD adj r n`     = ∑_{x < n} adj[r, x]             (the degree over the first n columns).
  Three facts, all in a commutative additive monoid (no finiteness, no cancellation):
    * nothing summed yet is zero;
    * the first a + 4096 columns are the first a, then the tile of 4096 starting at a
      (`Finset.sum_range_add`, the tile re-indexed over `Fin 4096`);
    * all 16384 columns give the specification's `agg` and `deg`.
-/
import proofs.«140261_j72773925863488_2_alg».proof.Proof.Spec

noncomputable section

namespace Cert.Tiles

open Idealize.ShloMosaic Idealize.ShloMosaic.ValueIdx Cert.Spec

/-- The adjacency matrix at natural coordinates: zero outside the array. -/
def adjN (adj : SA.Idx → EReal) (r j : Nat) : EReal :=
  if hh : r < 16384 ∧ j < 16384 then adj (ix2 ⟨r, hh.1⟩ ⟨j, hh.2⟩) else 0

/-- The node features at natural coordinates: zero outside the array. -/
def hN (h : SH.Idx → EReal) (j e : Nat) : EReal :=
  if hh : j < 16384 ∧ e < 128 then h (ix2 ⟨j, hh.1⟩ ⟨e, hh.2⟩) else 0

theorem adjN_of_lt (adj : SA.Idx → EReal) {r j : Nat} (hr : r < 16384) (hj : j < 16384) :
    adjN adj r j = adj (ix2 ⟨r, hr⟩ ⟨j, hj⟩) := dif_pos ⟨hr, hj⟩

theorem hN_of_lt (h : SH.Idx → EReal) {j e : Nat} (hj : j < 16384) (he : e < 128) :
    hN h j e = h (ix2 ⟨j, hj⟩ ⟨e, he⟩) := dif_pos ⟨hj, he⟩

/-- The neighbour sum of row `r`, feature `e`, over the first `n` columns. -/
def partH (h : SH.Idx → EReal) (adj : SA.Idx → EReal) (r e n : Nat) : EReal :=
  ∑ x ∈ Finset.range n, adjN adj r x * hN h x e

/-- The degree of row `r` over the first `n` columns. -/
def partD (adj : SA.Idx → EReal) (r n : Nat) : EReal :=
  ∑ x ∈ Finset.range n, adjN adj r x

theorem partH_zero (h : SH.Idx → EReal) (adj : SA.Idx → EReal) (r e : Nat) : partH h adj r e 0 = 0 :=
  Finset.sum_range_zero _

theorem partD_zero (adj : SA.Idx → EReal) (r : Nat) : partD adj r 0 = 0 :=
  Finset.sum_range_zero _

/-- One more tile: the first `a + 4096` columns are the first `a` and then the 4096 starting at `a`. -/
theorem partH_add_tile (h : SH.Idx → EReal) (adj : SA.Idx → EReal) (r e a : Nat) :
    partH h adj r e (a + 4096)
      = partH h adj r e a + ∑ j : Fin 4096, adjN adj r (a + j.val) * hN h (a + j.val) e := by
  unfold partH
  rw [Finset.sum_range_add, Fin.sum_univ_eq_sum_range (fun x => adjN adj r (a + x) * hN h (a + x) e) 4096]

theorem partD_add_tile (adj : SA.Idx → EReal) (r a : Nat) :
    partD adj r (a + 4096) = partD adj r a + ∑ j : Fin 4096, adjN adj r (a + j.val) := by
  unfold partD
  rw [Finset.sum_range_add, Fin.sum_univ_eq_sum_range (fun x => adjN adj r (a + x)) 4096]

/-- All 16384 columns: the specification's neighbour sum. -/
theorem partH_full (h : SH.Idx → EReal) (adj : SA.Idx → EReal) (r : Fin 16384) (e : Fin 128) :
    partH h adj r.val e.val 16384 = agg h adj r e := by
  unfold partH agg
  rw [← Fin.sum_univ_eq_sum_range (fun x => adjN adj r.val x * hN h x e.val) 16384]
  exact Finset.sum_congr rfl fun j _ => by rw [adjN_of_lt adj r.isLt j.isLt, hN_of_lt h j.isLt e.isLt]

/-- All 16384 columns: the specification's degree. -/
theorem partD_full (adj : SA.Idx → EReal) (r : Fin 16384) : partD adj r.val 16384 = deg adj r := by
  unfold partD deg
  rw [← Fin.sum_univ_eq_sum_range (fun x => adjN adj r.val x) 16384]
  exact Finset.sum_congr rfl fun j _ => by rw [adjN_of_lt adj r.isLt j.isLt]

end Cert.Tiles

end
-- ==== Proof.Blocks.lean ====
/-
  Where each block sits in its array.

  Grid point `t` (0 ≤ t < 64, row-major over 16 row tiles × 4 column tiles) is row tile t / 4 and column
  tile t % 4. Read at coordinates, and with the adjacency matrix and the features taken at natural
  coordinates (`Tiles.adjN`, `Tiles.hN`):
    * the adjacency block at (p, j) is adj[1024·(t/4) + p, 4096·(t%4) + j];
    * the feature array is resident whole (block (0, 0) of a one-block window); the body cuts two slices
      of it itself: the 4096 rows facing the column tile, at (j, e) h[4096·(t%4) + j, e], and, at the last
      column tile, the row tile's own 1024 rows, at (p, e) h[1024·(t/4) + p, e];
    * the two weight matrices are resident whole.
  A block's coordinate in its array is always (block index) × (block size) + (coordinate inside the block),
  and a slice's is its offset plus the coordinate inside it; the block indices and the grid coordinates are
  decided once over the 64 points, the slice offsets have their closed forms 4096·k and 1024·i.
-/
import proofs.«140261_j72773925863488_2_alg».proof.Proof.Pieces
import proofs.«140261_j72773925863488_2_alg».proof.Proof.Tiles
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Tiles

variable (m : (ℓ : Loc nD τ sig) → Buf (Elt Ideal) ℓ)

/-- The printed index maps and grid coordinates, decided once over the 64 grid points: point `t` is row tile
    `t / 4`, column tile `t % 4`; the adjacency window moves with both, the output window with the row tile,
    the feature array and the two weight matrices stay at block (0, 0). -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0
    ∧ ((grid0.coords t) 0).val = t.val / 4 ∧ ((grid0.coords t) 1).val = t.val % 4 :=
  (by decide +kernel : ∀ t : Fin grid0.N, _)

/-- The adjacency block of point `t` at (p, j) is adj[1024·(t/4) + p, 4096·(t%4) + j]. -/
theorem adj_block (c : Dev nD) (t : Fin cfg0.N) (p : Fin 1024) (j : Fin 4096) :
    (iblk m c 0 t : Vec Ideal S1024x4096 .f32) (ix2 p j)
      = adjN (V m c main_arg1) (1024 * (t.val / 4) + p.val) (4096 * (t.val % 4) + j.val) := by
  have hN : t.val < 64 := lt_of_lt_of_eq t.isLt (show cfg0.N = 64 from N_0)
  obtain ⟨e0, e1, -⟩ := idx_facts t
  rw [adjN_of_lt _ (by omega : 1024 * (t.val / 4) + p.val < 16384) (by omega : 4096 * (t.val % 4) + j.val < 16384)]
  unfold iblk
  rw [View.read_apply]
  show V m c main_arg1 _ = V m c main_arg1 _
  congr 1
  funext a
  apply Fin.ext
  match a with
  | ⟨0, _⟩ => show win0_0.index t (0 : Fin 2) * 1024 + 1 * p.val = 1024 * (t.val / 4) + p.val; omega
  | ⟨1, _⟩ => show win0_0.index t (1 : Fin 2) * 4096 + 1 * j.val = 4096 * (t.val % 4) + j.val; omega

/-- The slice of the resident features facing column tile `t % 4`, at (j, e), is h[4096·(t%4) + j, e]. -/
theorem h_tile (c : Dev nD) (t : Fin cfg0.N) (j : Fin 4096) (e : Fin 128) :
    Pieces.hTile (grid0.coords t) (iblk m c 1 t : Vec Ideal S16384x128 .f32) (ix2 j e)
      = hN (V m c main_arg0) (4096 * (t.val % 4) + j.val) e.val := by
  have hN' : t.val < 64 := lt_of_lt_of_eq t.isLt (show cfg0.N = 64 from N_0)
  obtain ⟨-, -, e2, e3, -, -, -, -, -, -, g0, g1⟩ := idx_facts t
  have o0 : k0_off1 (grid0.coords t) 0 = 4096 * ((grid0.coords t) 1).val := congrFun (k0_off1_eq (grid0.coords t)) 0
  have o1 : k0_off1 (grid0.coords t) 1 = 0 := congrFun (k0_off1_eq (grid0.coords t)) 1
  rw [hN_of_lt _ (by omega : 4096 * (t.val % 4) + j.val < 16384) e.isLt]
  unfold Pieces.hTile View.ld iblk
  rw [View.read_apply]
  show V m c main_arg0 _ = V m c main_arg0 _
  congr 1
  funext a
  apply Fin.ext
  match a with
  | ⟨0, _⟩ =>
    show win0_1.index t (0 : Fin 2) * 16384 + 1 * (k0_off1 (grid0.coords t) 0 + 1 * j.val) = 4096 * (t.val % 4) + j.val
    omega
  | ⟨1, _⟩ =>
    show win0_1.index t (1 : Fin 2) * 128 + 1 * (k0_off1 (grid0.coords t) 1 + 1 * e.val) = e.val
    omega

/-- The row tile's own rows of the resident features, at (p, e), are h[r, e] for the node r = 1024·(t/4) + p. -/
theorem h_self (c : Dev nD) (t : Fin cfg0.N) (hc1 : cond0_1 (grid0.coords t)) (p : Fin 1024) (e : Fin 128)
    (r : Fin 16384) (hr : r.val = 1024 * (t.val / 4) + p.val) :
    Pieces.hSelf (grid0.coords t) hc1 (iblk m c 1 t : Vec Ideal S16384x128 .f32) (ix2 p e)
      = V m c main_arg0 (ix2 r e) := by
  obtain ⟨-, -, e2, e3, -, -, -, -, -, -, g0, g1⟩ := idx_facts t
  have o0 : k0_off2 (grid0.coords t) 0 = 1024 * ((grid0.coords t) 0).val := congrFun (k0_off2_eq (grid0.coords t)) 0
  have o1 : k0_off2 (grid0.coords t) 1 = 0 := congrFun (k0_off2_eq (grid0.coords t)) 1
  unfold Pieces.hSelf View.ld iblk
  rw [View.read_apply]
  show V m c main_arg0 _ = V m c main_arg0 _
  congr 1
  funext a
  apply Fin.ext
  match a with
  | ⟨0, _⟩ =>
    show win0_1.index t (0 : Fin 2) * 16384 + 1 * (k0_off2 (grid0.coords t) 0 + 1 * p.val) = r.val
    omega
  | ⟨1, _⟩ =>
    show win0_1.index t (1 : Fin 2) * 128 + 1 * (k0_off2 (grid0.coords t) 1 + 1 * e.val) = e.val
    omega

/-- The first weight matrix is resident whole. -/
theorem w_self (c : Dev nD) (t : Fin cfg0.N) (e d : Fin 128) :
    (iblk m c 2 t : Vec Ideal S128x128 .f32) (ix2 e d) = V m c main_arg2 (ix2 e d) := by
  obtain ⟨-, -, -, -, e4, e5, -⟩ := idx_facts t
  unfold iblk
  rw [View.read_apply]
  show V m c main_arg2 _ = V m c main_arg2 _
  congr 1
  funext a
  apply Fin.ext
  match a with
  | ⟨0, _⟩ => show win0_2.index t (0 : Fin 2) * 128 + 1 * e.val = e.val; omega
  | ⟨1, _⟩ => show win0_2.index t (1 : Fin 2) * 128 + 1 * d.val = d.val; omega

/-- The second weight matrix is resident whole. -/
theorem w_neigh (c : Dev nD) (t : Fin cfg0.N) (e d : Fin 128) :
    (iblk m c 3 t : Vec Ideal S128x128 .f32) (ix2 e d) = V m c main_arg3 (ix2 e d) := by
  obtain ⟨-, -, -, -, -, -, e6, e7, -⟩ := idx_facts t
  unfold iblk
  rw [View.read_apply]
  show V m c main_arg3 _ = V m c main_arg3 _
  congr 1
  funext a
  apply Fin.ext
  match a with
  | ⟨0, _⟩ => show win0_3.index t (0 : Fin 2) * 128 + 1 * e.val = e.val; omega
  | ⟨1, _⟩ => show win0_3.index t (1 : Fin 2) * 128 + 1 * d.val = d.val; omega

end Cert.KernelIdeal.Blocks

end
-- ==== Proof.Payloads.lean ====
/-
  The five values the layer's tile body stores, each read at one index, on the extended reals.

  The body handles 1024 rows of the adjacency matrix against 4096 of its columns. Two running blocks of 1024 × 128
  are carried from one column tile to the next: the partial product  adj · h  and the partial row sum of  adj  (the
  weighted degree), the latter held equal in all 128 lanes. The stored values are
    * the reset: both running blocks start at zero (`pay1_apply`, `pay2_apply`);
    * the running product plus this tile's share: at (p, e) the old value plus  ∑ⱼ adj[p, j] · h[j, e]  over the tile's
      4096 columns (`pay3_apply`);
    * the running degree plus this tile's row sum: at (p, e) the old value plus  ∑ⱼ adj[p, j], the same in every lane e
      (`pay4_apply`);
    * the finalisation: at (p, d) the node's own features through the first weight matrix,  ∑ₑ h[p, e] · Wself[e, d],
      plus its neighbours' mean through the second,  ∑ₑ (acc[p, e] / max (deg[p, e]) 1) · Wneigh[e, d]  — the mean being
      the accumulated sum over the accumulated degree clamped below at one (`pay5_apply`).
  Two laws read the operations that are not pointwise: a product of matrices accumulated into a zero block is, entry
  by entry, the plain sum over the contracted index; a reduction along the lane axis is the sum over the lane index.
  The rest is pointwise (a sum, a quotient, a maximum, a constant) or moves no value (a cast to the same shape; a
  vector written as a one-column matrix; that column repeated in every lane).
-/
import proofs.«140261_j72773925863488_2_alg».proof.Proof.Gen.KernelIdeal.Skeleton
import proofs.«140261_j72773925863488_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## A product of matrices into a zero block

With one contracted axis and no batch axis, entry (p, e) of the product reads the left matrix along row p and the
right matrix along column e; accumulated into zero it is  ∑ⱼ a[p, j] · b[j, e]  and nothing else. -/

/-- The left operand's row coordinate is the output's row. -/
private theorem tileMatmul_lhs_row (i : S1024x128.Idx) (q : dot_S1024x4096_S4096x128_S1024x128_1_0_0_1_n_n.contr.Idx) :
    (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide),
    dif_pos (show (0 : Fin S1024x4096.rank) ∈ dot_S1024x4096_S4096x128_S1024x128_1_0_0_1_n_n.lhsNonContracting by decide)]
  rfl
/-- The left operand's column coordinate is the contracted index. -/
private theorem tileMatmul_lhs_contr (i : S1024x128.Idx) (q : dot_S1024x4096_S4096x128_S1024x128_1_0_0_1_n_n.contr.Idx) :
    (dot_S1024x4096_S4096x128_S1024x128_1_0_0_1_n_n.lhsIdx i q 1).val = (q ⟨0, by decide⟩).val :=
  dot_S1024x4096_S4096x128_S1024x128_1_0_0_1_n_n.lhsIdx_val_of_single rfl i q
/-- The right operand's row coordinate is the contracted index. -/
private theorem tileMatmul_rhs_contr (i : S1024x128.Idx) (q : dot_S1024x4096_S4096x128_S1024x128_1_0_0_1_n_n.contr.Idx) :
    (dot_S1024x4096_S4096x128_S1024x128_1_0_0_1_n_n.rhsIdx i q 0).val = (q ⟨0, by decide⟩).val :=
  dot_S1024x4096_S4096x128_S1024x128_1_0_0_1_n_n.rhsIdx_val_of_single rfl i q
/-- The right operand's column coordinate is the output's column. -/
private theorem tileMatmul_rhs_col (i : S1024x128.Idx) (q : dot_S1024x4096_S4096x128_S1024x128_1_0_0_1_n_n.contr.Idx) :
    (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide),
    dif_pos (show (1 : Fin S4096x128.rank) ∈ dot_S1024x4096_S4096x128_S1024x128_1_0_0_1_n_n.rhsNonContracting by decide)]
  rfl

/-- The adjacency tile (1024 × 4096) times the feature tile (4096 × 128), into zero: at (p, e) the sum over the
    tile's 4096 columns j of  a[p, j] · b[j, e]. -/
private theorem tileMatmul_apply (a : FVec Ideal S1024x4096 .f32) (b : FVec Ideal S4096x128 .f32) (p : Fin 1024) (e : Fin 128) :
    matmul dot_S1024x4096_S4096x128_S1024x128_1_0_0_1_n_n (some .fp32) a b (constant (F := Ideal) S1024x128 .f32 0x00000000#32) (ix2 p e)
      = ∑ j : Fin 4096, a (ix2 p j) * b (ix2 j e) := by
  -- into the zero block the product is the sum over the contraction's index set …
  refine (Ideal.matmul_constant_zero_apply dot_S1024x4096_S4096x128_S1024x128_1_0_0_1_n_n (some .fp32) a b (ix2 p e)).trans ?_
  -- … which has one axis, of extent 4096: sum over that coordinate instead
  rw [← Equiv.sum_comp (contrEquiv1 dot_S1024x4096_S4096x128_S1024x128_1_0_0_1_n_n 4096 rfl rfl).symm]
  refine Finset.sum_congr rfl fun j _ => ?_
  have hj := contrEquiv1_symm_val dot_S1024x4096_S4096x128_S1024x128_1_0_0_1_n_n 4096 rfl rfl j
  -- the left factor sits at (p, j) …
  have el : dot_S1024x4096_S4096x128_S1024x128_1_0_0_1_n_n.lhsIdx (ix2 p e) ((contrEquiv1 dot_S1024x4096_S4096x128_S1024x128_1_0_0_1_n_n 4096 rfl rfl).symm j) = ix2 p j :=
    funext fun c => Fin.ext (by
      match c with
      | ⟨0, _⟩ => exact tileMatmul_lhs_row _ _
      | ⟨1, _⟩ => exact (tileMatmul_lhs_contr _ _).trans hj)
  -- … and the right factor at (j, e)
  have er : dot_S1024x4096_S4096x128_S1024x128_1_0_0_1_n_n.rhsIdx (ix2 p e) ((contrEquiv1 dot_S1024x4096_S4096x128_S1024x128_1_0_0_1_n_n 4096 rfl rfl).symm j) = ix2 j e :=
    funext fun c => Fin.ext (by
      match c with
      | ⟨0, _⟩ => exact (tileMatmul_rhs_contr _ _).trans hj
      | ⟨1, _⟩ => exact tileMatmul_rhs_col _ _)
  rw [el, er]

/-- The left operand's row coordinate is the output's row. -/
private theorem projMatmul_lhs_row (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
/-- The left operand's column coordinate is the contracted index. -/
private theorem projMatmul_lhs_contr (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand's row coordinate is the contracted index. -/
private theorem projMatmul_rhs_contr (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- The right operand's column coordinate is the output's column. -/
private theorem projMatmul_rhs_col (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- A block of 1024 feature rows times a 128 × 128 weight matrix, into zero: at (p, e) the sum over the 128
    features j of  a[p, j] · b[j, e]. -/
private theorem projMatmul_apply (a : FVec Ideal S1024x128 .f32) (b : FVec Ideal S128x128 .f32) (p : Fin 1024) (e : Fin 128) :
    matmul dot_S1024x128_S128x128_S1024x128_1_0_0_1_n_n (some .fp32) a b (constant (F := Ideal) S1024x128 .f32 0x00000000#32) (ix2 p e)
      = ∑ j : Fin 128, a (ix2 p j) * b (ix2 j e) := by
  -- into the zero block the product is the sum over the contraction's index set …
  refine (Ideal.matmul_constant_zero_apply dot_S1024x128_S128x128_S1024x128_1_0_0_1_n_n (some .fp32) a b (ix2 p e)).trans ?_
  -- … which has one axis, of extent 128: sum over that coordinate instead
  rw [← Equiv.sum_comp (contrEquiv1 dot_S1024x128_S128x128_S1024x128_1_0_0_1_n_n 128 rfl rfl).symm]
  refine Finset.sum_congr rfl fun j _ => ?_
  have hj := contrEquiv1_symm_val dot_S1024x128_S128x128_S1024x128_1_0_0_1_n_n 128 rfl rfl j
  -- the left factor sits at (p, j) …
  have el : dot_S1024x128_S128x128_S1024x128_1_0_0_1_n_n.lhsIdx (ix2 p e) ((contrEquiv1 dot_S1024x128_S128x128_S1024x128_1_0_0_1_n_n 128 rfl rfl).symm j) = ix2 p j :=
    funext fun c => Fin.ext (by
      match c with
      | ⟨0, _⟩ => exact projMatmul_lhs_row _ _
      | ⟨1, _⟩ => exact (projMatmul_lhs_contr _ _).trans hj)
  -- … and the right factor at (j, e)
  have er : dot_S1024x128_S128x128_S1024x128_1_0_0_1_n_n.rhsIdx (ix2 p e) ((contrEquiv1 dot_S1024x128_S128x128_S1024x128_1_0_0_1_n_n 128 rfl rfl).symm j) = ix2 j e :=
    funext fun c => Fin.ext (by
      match c with
      | ⟨0, _⟩ => exact (projMatmul_rhs_contr _ _).trans hj
      | ⟨1, _⟩ => exact projMatmul_rhs_col _ _)
  rw [el, er]

/-! ## The row sum

A sum-reduction along the lane axis is, at row p, the sum over the lane index:  ∑ⱼ x[p, j]. -/

/-- The adjacency tile summed along its 4096 columns: at row p,  ∑ⱼ x[p, j]. -/
private theorem rowSum_apply (x : FVec Ideal S1024x4096 .f32) (hφ : FKind.Formats .f32)
    (hacc : (0x00000000#32 : BitVec 32) = FKind.add.neutral .f32 hφ) (p : Fin 1024) :
    multiReduction (F := Ideal) .add [1] S1024 x 0x00000000#32 reduces_S1024x4096_S1024 hφ hacc (ix1 p)
      = ∑ j : Fin 4096, x (ix2 p j) := by
  refine (Ideal.multiReduction_add_single x _ reduces_S1024x4096_S1024 hφ hacc (ix1 p)).trans ?_
  -- the index the law sums over is row p with the lane coordinate j put back: (p, j)
  refine Finset.sum_congr rfl fun j _ => ?_
  exact congrArg x (funext fun c => Fin.ext (by match c with | ⟨0, _⟩ => rfl | ⟨1, _⟩ => rfl))

/-! ## A vector as a column, and the column in every lane

Neither operation computes anything: entry (i, 0) of the one-column matrix is entry i of the vector (the two have the
same position in row-major order, i = i · 1 + 0), and entry (p, c) of the column repeated along the lanes is entry
(p, 0) of the column, whatever c. -/

/-- A vector of length a written as an a × 1 matrix reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An a × 1 column repeated to a × b reads, at (p, c), the column at (p, 0). -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- the row coordinate is kept (and is 0 anyway should the column have a single row)
    show p.val = if a = 1 then 0 else p.val
    split
    · have := p.isLt; omega
    · rfl
  | ⟨1, _⟩ => rfl

/-! ## The five stored values -/

/-- The reset of the running product: zero everywhere. -/
theorem pay1_apply (y : S1024x128.Idx) : k0_pay1 (F := Ideal) y = 0 := by
  unfold k0_pay1
  refine (congrFun (shapeCast_self _ shapeCasts_S1024x128_S1024x128) y).trans ?_
  refine (broadcast_apply _ y).trans ?_
  exact Ideal.ofBits_zero_f32

/-- The reset of the running degree: zero everywhere. -/
theorem pay2_apply (y : S1024x128.Idx) : k0_pay2 (F := Ideal) y = 0 := by
  unfold k0_pay2
  refine (congrFun (shapeCast_self _ shapeCasts_S1024x128_S1024x128) y).trans ?_
  refine (broadcast_apply _ y).trans ?_
  exact Ideal.ofBits_zero_f32

/-- The running product after this tile: the old value at (p, e) plus the tile's share  ∑ⱼ adj[p, j] · h[j, e]. -/
theorem pay3_apply (v3 : Vec Ideal S1024x4096 .f32) (v7 : Vec Ideal S4096x128 .f32) (v8 : Vec Ideal S1024x128 .f32) (p : Fin 1024) (e : Fin 128) :
    k0_pay3 (F := Ideal) v3 v7 v8 (ix2 p e) = v8 (ix2 p e) + ∑ j : Fin 4096, v3 (ix2 p j) * v7 (ix2 j e) := by
  unfold k0_pay3
  -- the cast to the same shape moves nothing; the sum is entry by entry; the product went into a zero block
  refine (congrFun (shapeCast_self _ shapeCasts_S1024x128_S1024x128) (ix2 p e)).trans ?_
  refine (addf_apply _ _ (ix2 p e)).trans ?_
  exact congrArg (v8 (ix2 p e) + ·) (tileMatmul_apply v3 v7 p e)

/-- The running degree after this tile: the old value at (p, e) plus the tile's row sum  ∑ⱼ adj[p, j]  — the same
    in every lane e, since the row sums are written as a column and the column repeated along the lanes. -/
theorem pay4_apply (v3 : Vec Ideal S1024x4096 .f32) (v16 : Vec Ideal S1024x128 .f32) (p : Fin 1024) (e : Fin 128) :
    k0_pay4 (F := Ideal) v3 v16 (ix2 p e) = v16 (ix2 p e) + ∑ j : Fin 4096, v3 (ix2 p j) := by
  unfold k0_pay4
  refine (congrFun (shapeCast_self _ shapeCasts_S1024x128_S1024x128) (ix2 p e)).trans ?_
  refine (addf_apply _ _ (ix2 p e)).trans ?_
  refine congrArg (v16 (ix2 p e) + ·) ?_
  -- lane e of the repeated column is the column at (p, 0); the column at (p, 0) is the vector of row sums at p
  refine (broadcastTo_a1_ab_apply _ broadcasts_S1024x1_S1024x128 p e).trans ?_
  refine (congrFun (shapeCast_self _ shapeCasts_S1024x1_S1024x1) (ix2 p (0 : Fin 1))).trans ?_
  refine (shapeCast_a_a1_apply _ shapeCasts_S1024_S1024x1 p (0 : Fin 1)).trans ?_
  exact rowSum_apply v3 _ _ p

/-- The float word of 1.0 the body clamps the degree with is the specification's `one`: the same word. -/
private theorem one_word : Scalar.ofBits (F := Ideal) .f32 0x3F800000#32 = Cert.Spec.one := rfl

/-- The finalisation at (p, d): the node's own features through the first weight matrix plus the neighbours' mean
    through the second, the mean at (p, e) being the accumulated sum over the accumulated degree clamped below at one. -/
theorem pay5_apply (v26 v29 v34 : Vec Ideal S1024x128 .f32) (v35 v37 : Vec Ideal S128x128 .f32) (p : Fin 1024) (d : Fin 128) :
    k0_pay5 (F := Ideal) v26 v29 v34 v35 v37 (ix2 p d)
      = (∑ e : Fin 128, v34 (ix2 p e) * v35 (ix2 e d))
        + ∑ e : Fin 128, Ideal.div (v29 (ix2 p e)) (max (v26 (ix2 p e)) Cert.Spec.one) * v37 (ix2 e d) := by
  unfold k0_pay5
  -- a sum of two products, each into a zero block
  refine (addf_apply _ _ (ix2 p d)).trans ?_
  refine congrArg₂ (· + ·) (projMatmul_apply v34 v35 p d) ?_
  refine (projMatmul_apply _ v37 p d).trans ?_
  refine Finset.sum_congr rfl fun e _ => ?_
  -- the left factor at (p, e): the quotient, the maximum and the constant are all entry by entry
  refine congrArg (· * v37 (ix2 e d)) ?_
  refine (divf_apply v29 _ (ix2 p e)).trans ?_
  refine congrArg (Ideal.div (v29 (ix2 p e))) ?_
  refine (maximumf_apply v26 _ (ix2 p e)).trans ?_
  exact congrArg (max (v26 (ix2 p e))) ((broadcast_apply _ (ix2 p e)).trans one_word)

end Cert.KernelIdeal.Pay

end
-- ==== Proof.Accum.lean ====
/-
  The two accumulators, point by point.

  After grid point n (row tile n / 4, column tile n % 4) the body has added the column tiles 0 … n % 4 of its
  row tile, so at (p, e) the carried blocks hold, for the row r = 1024·(n/4) + p,
    * the neighbour sum over the first 4096·(n%4 + 1) columns:  ∑_{x < 4096·(n%4+1)} adj[r, x] · h[x, e];
    * the degree over the same columns:                           ∑_{x < 4096·(n%4+1)} adj[r, x].
  At a first column tile (n % 4 = 0) the reset gives zero and the tile's contribution is the sum over the first
  4096 columns. At a later one the point before (same row tile, one column tile less) left the sum over the
  first 4096·(n%4) columns and this tile adds the next 4096. Nothing but "a sum over a + 4096 terms is the sum
  over the first a plus the next 4096" is used, so no hypothesis on the values enters.
-/
import proofs.«140261_j72773925863488_2_alg».proof.Proof.Blocks
import proofs.«140261_j72773925863488_2_alg».proof.Proof.Payloads

set_option maxRecDepth 16384

noncomputable section

namespace Cert.KernelIdeal.Accum

open Idealize.ShloMosaic Idealize.ShloMosaic.TcCoe Idealize.ShloMosaic.ValueIdx Idealize.SL.Sem
open Cert.KernelIdeal Cert.KernelIdeal.Gen Cert.Tiles Cert.KernelIdeal.Blocks Cert.KernelIdeal.Pay

variable (m : (ℓ : Loc nD τ sig) → Buf (Elt Ideal) ℓ)

/-- One accumulation of the neighbour sum at point `t` over a block `acc`: at (p, e), `acc` plus the tile's
    4096 products adj[r, 4096·(t%4) + j] · h[4096·(t%4) + j, e]. -/
theorem stepH (c : Dev nD) (t : Fin cfg0.N) (acc : Vec Ideal S1024x128 .f32) (p : Fin 1024) (e : Fin 128) :
    k0_pay3 (F := Ideal) (iblk m c 0 t) (Pieces.hTile (grid0.coords t) (iblk m c 1 t)) acc (ix2 p e)
      = acc (ix2 p e) + ∑ j : Fin 4096,
          adjN (V m c main_arg1) (1024 * (t.val / 4) + p.val) (4096 * (t.val % 4) + j.val)
            * hN (V m c main_arg0) (4096 * (t.val % 4) + j.val) e.val := by
  refine (pay3_apply (iblk m c 0 t) (Pieces.hTile (grid0.coords t) (iblk m c 1 t)) acc p e).trans ?_
  refine congrArg (acc (ix2 p e) + ·) (Finset.sum_congr rfl fun j _ => ?_)
  rw [adj_block m c t p j, h_tile m c t j e]

/-- One accumulation of the degree at point `t` over a block `acc`: at (p, e), `acc` plus the tile's 4096
    entries adj[r, 4096·(t%4) + j], whatever the lane e. -/
theorem stepD (c : Dev nD) (t : Fin cfg0.N) (acc : Vec Ideal S1024x128 .f32) (p : Fin 1024) (e : Fin 128) :
    k0_pay4 (F := Ideal) (iblk m c 0 t) acc (ix2 p e)
      = acc (ix2 p e) + ∑ j : Fin 4096,
          adjN (V m c main_arg1) (1024 * (t.val / 4) + p.val) (4096 * (t.val % 4) + j.val) := by
  refine (pay4_apply (iblk m c 0 t) acc p e).trans ?_
  refine congrArg (acc (ix2 p e) + ·) (Finset.sum_congr rfl fun j _ => ?_)
  rw [adj_block m c t p j]

/-- What the accumulators hold after point `n`: the partial sums of row tile n / 4 over the first
    4096·(n%4 + 1) columns. -/
abbrev Holds (c : Dev nD) (n : Nat) (hn : n < cfg0.N) : Prop :=
  ∀ (p : Fin 1024) (e : Fin 128),
    (outsAt0 m c n hn).2.1 (ix2 p e)
        = partH (V m c main_arg0) (V m c main_arg1) (1024 * (n / 4) + p.val) e.val (4096 * (n % 4 + 1))
      ∧ (outsAt0 m c n hn).2.2 (ix2 p e)
        = partD (V m c main_arg1) (1024 * (n / 4) + p.val) (4096 * (n % 4 + 1))

/-- At a first column tile the accumulators are reset, so they hold exactly this tile: the first 4096 columns. -/
theorem holds_first (c : Dev nD) (t : Fin cfg0.N) (h0 : t.val % 4 = 0) : Holds m c t.val t.isLt := by
  intro p e
  have hN : t.val < 64 := lt_of_lt_of_eq t.isLt (show cfg0.N = 64 from N_0)
  have h1 : ¬t.val % 4 = 3 := by omega
  have ha : 4096 * (t.val % 4) = 0 := by omega
  have hb : 4096 * (t.val % 4 + 1) = 0 + 4096 := by omega
  rw [outsAt0_A m c t h0 h1]
  dsimp only
  rw [Pieces.accH_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    Pieces.accD_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)]
  rw [stepH m c t _ p e, stepD m c t _ p e, pay1_apply, pay2_apply, zero_add, zero_add, hb, partH_add_tile,
    partD_add_tile, partH_zero, partD_zero, zero_add, zero_add, ha]
  exact ⟨rfl, rfl⟩

/-- At a later column tile the point before left the sums over the first 4096·(t%4) columns of the same rows,
    and this tile adds the next 4096. -/
theorem holds_next (c : Dev nD) (t : Fin cfg0.N) (h0 : ¬t.val % 4 = 0)
    (ih : Holds m c (t.val - 1) (Nat.lt_of_le_of_lt (Nat.sub_le _ _) t.isLt)) : Holds m c t.val t.isLt := by
  intro p e
  have hN : t.val < 64 := lt_of_lt_of_eq t.isLt (show cfg0.N = 64 from N_0)
  have q1 : (t.val - 1) / 4 = t.val / 4 := by omega
  have q2 : (t.val - 1) % 4 + 1 = t.val % 4 := by omega
  have hb : 4096 * (t.val % 4 + 1) = 4096 * (t.val % 4) + 4096 := by omega
  obtain ⟨ihH, ihD⟩ := ih p e
  rw [q1, q2] at ihH ihD
  by_cases h1 : t.val % 4 = 3
  · rw [outsAt0_C m c t h0 h1]
    dsimp only
    rw [Pieces.accH_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      Pieces.accD_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]
    rw [stepH m c t _ p e, stepD m c t _ p e, ihH, ihD, hb, partH_add_tile, partD_add_tile]
    exact ⟨rfl, rfl⟩
  · rw [outsAt0_B m c t h0 h1]
    dsimp only
    rw [Pieces.accH_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      Pieces.accD_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]
    rw [stepH m c t _ p e, stepD m c t _ p e, ihH, ihD, hb, partH_add_tile, partD_add_tile]
    exact ⟨rfl, rfl⟩

/-- So it holds after every point, by induction on the point (never by enumerating the grid). -/
theorem holds (c : Dev nD) : ∀ (n : Nat) (hn : n < cfg0.N), Holds m c n hn
  | 0, hn => holds_first m c ⟨0, hn⟩ rfl
  | n + 1, hn => by
    by_cases h0 : (n + 1) % 4 = 0
    · exact holds_first m c ⟨n + 1, hn⟩ h0
    · exact holds_next m c ⟨n + 1, hn⟩ h0 (holds c n (Nat.lt_of_succ_lt hn))

end Cert.KernelIdeal.Accum

end
-- ==== Proof.Result.lean ====
/-
  The kernel's result array is the layer of its argument arrays.

  At a last column tile (t % 4 = 3) the accumulators hold the sums over all 16384 columns, which are the
  specification's neighbour sum and degree of the rows 1024·(t/4) + p; the block the body then writes is, at
  (p, d),  ∑ₑ h[r, e] · Wself[e, d] + ∑ₑ (agg / max(deg, 1)) · Wneigh[e, d]  for r = 1024·(t/4) + p: the layer at
  (r, d). Only those points write their block back, and the block of point t is rows 1024·(t/4) … 1024·(t/4) + 1023,
  all 128 columns. Row r of the array is therefore written by the point 4·(r / 1024) + 3, so every entry of the
  array is written, by a block that holds the layer there: the array ends holding the layer.
-/
import proofs.«140261_j72773925863488_2_alg».proof.Proof.Accum
import proofs.«140261_j72773925863488_2_alg».proof.Proof.Gen.KernelIdeal.Value

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.Tiles Cert.KernelIdeal.Blocks Cert.KernelIdeal.Pay Cert.KernelIdeal.Accum

/-- The layer at node r, output column d, written out: the own-feature projection plus the projection of the
    neighbours' mean, the mean being the neighbour sum over the degree clamped below at one. -/
theorem layer_at (h : Cert.Spec.SH.Idx → EReal) (adj : Cert.Spec.SA.Idx → EReal) (Wself Wneigh : Cert.Spec.SW.Idx → EReal)
    (r : Fin 16384) (d : Fin 128) :
    Cert.Spec.G h adj Wself Wneigh (ix2 r d)
      = (∑ e : Fin 128, h (ix2 r e) * Wself (ix2 e d))
        + ∑ e : Fin 128, Ideal.div (Cert.Spec.agg h adj r e) (max (Cert.Spec.deg adj r) Cert.Spec.one)
            * Wneigh (ix2 e d) := rfl

variable (m : (ℓ : Loc nD τ sig) → Buf (Elt Ideal) ℓ) (ρ : Dev nD → PrngReg)

/-- The layer of the argument arrays as the region finds them, as contents of the result array. -/
abbrev result (c : Dev nD) : Buf (Elt Ideal) ((c : Thread nD τ).loc main_v0) :=
  Cert.Spec.G (V m c main_arg0) (V m c main_arg1) (V m c main_arg2) (V m c main_arg3)

/-- At a last column tile the block the body writes is the layer on its row tile: entry (p, d) is the layer at
    (r, d) for the node r = 1024·(t/4) + p. The accumulators it divides are the full sums (all four tiles
    added), which are the specification's `agg` and `deg`. -/
theorem out_block (c : Dev nD) (t : Fin cfg0.N) (h0 : ¬t.val % 4 = 0) (h1 : t.val % 4 = 3)
    (p : Fin 1024) (d : Fin 128) (r : Fin 16384) (hr : r.val = 1024 * (t.val / 4) + p.val) :
    (outsAt0 m c t.val t.isLt).1 (ix2 p d) = result m c (ix2 r d) := by
  have hN : t.val < 64 := lt_of_lt_of_eq t.isLt (show cfg0.N = 64 from N_0)
  have hfull : 4096 * (t.val % 4 + 1) = 16384 := by omega
  have hH : ∀ (p : Fin 1024) (e : Fin 128),
      k0_pay3 (F := Ideal) (iblk m c 0 t) (Pieces.hTile (grid0.coords t) (iblk m c 1 t))
          (outsAt0 m c (t.val - 1) (Nat.lt_of_le_of_lt (Nat.sub_le _ _) t.isLt)).2.1 (ix2 p e)
        = partH (V m c main_arg0) (V m c main_arg1) (1024 * (t.val / 4) + p.val) e.val (4096 * (t.val % 4 + 1))
      ∧ k0_pay4 (F := Ideal) (iblk m c 0 t)
          (outsAt0 m c (t.val - 1) (Nat.lt_of_le_of_lt (Nat.sub_le _ _) t.isLt)).2.2 (ix2 p e)
        = partD (V m c main_arg1) (1024 * (t.val / 4) + p.val) (4096 * (t.val % 4 + 1)) := by
    intro p e
    have hh := holds m c t.val t.isLt p e
    rw [outsAt0_C m c t h0 h1] at hh
    dsimp only at hh
    rw [Pieces.accH_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      Pieces.accD_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2] at hh
    exact hh
  rw [outsAt0_C m c t h0 h1]
  dsimp only
  rw [Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]
  refine (pay5_apply _ _ _ _ _ p d).trans ?_
  refine Eq.trans ?_ (layer_at (V m c main_arg0) (V m c main_arg1) (V m c main_arg2) (V m c main_arg3) r d).symm
  refine congrArg₂ (· + ·) (Finset.sum_congr rfl fun e _ => ?_) (Finset.sum_congr rfl fun e _ => ?_)
  · rw [h_self m c t ((hcond0_1 t).mpr h1) p e r hr, w_self m c t e d]
  · rw [(hH p e).1, (hH p e).2, w_neigh m c t e d, hfull, ← hr, partH_full, partD_full]

/-- An index of the array is in point `t`'s block iff each coordinate is in the block's range on its axis. -/
theorem mem_blk (t : Fin cfg0.N) (i : S16384x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v0).slice (win0_4.rect t)).set ↔ _
  rw [View.set_slice_whole, Rect.mem_set_unit]
  exact Iff.rfl

/-- What a writing point writes back is its block of the layer. -/
theorem flushed_eq (c : Dev nD) (t : Fin cfg0.N) (hf : (cfg0.win 4).flush t = true) :
    (dats m 0 c).flushed 4 t = ((cfg0.win 4).blk t).view.read (Elt Ideal) (result m c) := by
  have hN : t.val < 64 := lt_of_lt_of_eq t.isLt (show cfg0.N = 64 from N_0)
  have h1 : t.val % 4 = 3 := (flush0_4 t).mp hf
  have h0 : ¬t.val % 4 = 0 := by omega
  obtain ⟨-, -, -, -, -, -, -, -, e8, e9, -⟩ := idx_facts t
  rw [Value.flushed4 m c t]
  funext y
  obtain ⟨p, d, rfl⟩ : ∃ (p : Fin 1024) (d : Fin 128), y = ix2 p d := ⟨y 0, y 1, eq_ix2 y⟩
  rw [View.read_apply]
  show (outsAt0 m c t.val t.isLt).1 (ix2 p d) = result m c _
  rw [out_block m c t h0 h1 p d ⟨1024 * (t.val / 4) + p.val, by omega⟩ rfl]
  refine congrArg (result m c) (funext fun a => Fin.ext ?_)
  match a with
  | ⟨0, _⟩ => show 1024 * (t.val / 4) + p.val = win0_4.index t (0 : Fin 2) * 1024 + 1 * p.val; omega
  | ⟨1, _⟩ => show d.val = win0_4.index t (1 : Fin 2) * 128 + 1 * d.val; omega

/-- Every entry of the array is in the block of a writing point: row r in that of point 4·(r / 1024) + 3. -/
theorem covered (i : S16384x128.Idx) :
    ∃ t : Fin cfg0.N, (cfg0.win 4).flush t = true ∧ i ∈ ((cfg0.win 4).blk t).view.set := by
  have hi0 : (i 0).val < 16384 := (i 0).isLt
  have hi1 : (i 1).val < 128 := (i 1).isLt
  have hlt : 4 * ((i 0).val / 1024) + 3 < cfg0.N := by rw [show cfg0.N = 64 from N_0]; omega
  obtain ⟨-, -, -, -, -, -, -, -, e8, e9, -⟩ := idx_facts ⟨4 * ((i 0).val / 1024) + 3, hlt⟩
  have e8' : win0_4.index ⟨4 * ((i 0).val / 1024) + 3, hlt⟩ (0 : Fin 2) = (4 * ((i 0).val / 1024) + 3) / 4 := e8
  refine ⟨⟨4 * ((i 0).val / 1024) + 3, hlt⟩, (flush0_4 _).mpr (by show (4 * ((i 0).val / 1024) + 3) % 4 = 3; omega), ?_⟩
  rw [mem_blk]
  intro a
  match a with
  | ⟨0, _⟩ =>
    show win0_4.index ⟨4 * ((i 0).val / 1024) + 3, hlt⟩ (0 : Fin 2) * 1024 ≤ (i 0).val
      ∧ (i 0).val < win0_4.index ⟨4 * ((i 0).val / 1024) + 3, hlt⟩ (0 : Fin 2) * 1024 + 1024
    omega
  | ⟨1, _⟩ =>
    show win0_4.index ⟨4 * ((i 0).val / 1024) + 3, hlt⟩ (1 : Fin 2) * 128 ≤ (i 1).val
      ∧ (i 1).val < win0_4.index ⟨4 * ((i 0).val / 1024) + 3, hlt⟩ (1 : Fin 2) * 128 + 128
    omega

/-- So the result array ends holding the layer. -/
theorem final (c : Dev nD) : (dats m 0 c).arrAt 4 cfg0.N = result m c :=
  (dats m 0 c).arrAt_eq_of_cover 4 (result m c) (flushed_eq m c) covered

/-- The kernel's run, read: the result array at the layer of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.lean ====
/-
  A GraphSAGE mean-aggregation layer, tiled, equals its plain reference on the extended reals.

  For node features h (16384 × 128), an adjacency matrix adj (16384 × 16384) and two weight matrices
  (128 × 128), both programs compute, for node r and output column d,

      out[r, d] = ∑ₑ h[r, e] · Wself[e, d]  +  ∑ₑ ( (∑ⱼ adj[r, j] · h[j, e]) / max(∑ⱼ adj[r, j], 1) ) · Wneigh[e, d].

  The reference does it with three whole matrix products, one row sum, one maximum and one division. The kernel
  walks a 16 × 4 grid: point (i, k) takes rows 1024·i … 1024·i + 1023 of adj and its columns 4096·k … 4096·k + 4095,
  adds the tile's share of adj · h and of the row sums to two accumulators carried along k (reset at k = 0),
  and at k = 3 divides, projects and writes the 1024 × 128 result block of row tile i.

  The two differ only in how the long sums over j are grouped (four stretches of 4096, accumulated from zero,
  against one sum of 16384) and in the order of the operands of the maximum. Addition on the extended reals is
  commutative and associative with zero neutral, and the maximum is commutative, so the results agree entry by
  entry for ALL extended-real inputs: the precondition that the inputs are finite is not used by the value
  argument. The constant 1.0 is the same float word in both programs and is never evaluated.

  How the proof is cut:
    * Spec       the layer as one function G of the four arrays, index by index;
    * RefIsSpec  the reference's result, read operation by operation, is G;
    * Payloads   the values the kernel body stores, read at an index;
    * Pieces     what one run of the body leaves in each buffer, case by case (k = 0; k = 1, 2; k = 3);
    * Tiles      partial sums over the first n columns, and how they grow by one tile;
    * Blocks     where each block and each in-kernel slice sits in its array;
    * Accum      the accumulators after every grid point, by induction on the point;
    * Result     the block written at k = 3 is G on its rows, the written blocks cover the array, so the
                 result array is G.
  The three frame conjuncts are the generated frames (the reference's is its generated run with the result
  dropped); the idealization rewrote nothing, so `preserves` is trivial.
-/
import proofs.«140261_j72773925863488_2_alg».proof.Defs
import proofs.«140261_j72773925863488_2_alg».proof.Proof.Gen.Kernel
import proofs.«140261_j72773925863488_2_alg».proof.Proof.Gen.Kernel.Frame
import proofs.«140261_j72773925863488_2_alg».proof.Proof.Gen.KernelIdeal
import proofs.«140261_j72773925863488_2_alg».proof.Proof.Gen.KernelIdeal.Frame
import proofs.«140261_j72773925863488_2_alg».proof.Proof.Gen.KernelIdeal.Value
import proofs.«140261_j72773925863488_2_alg».proof.Proof.Gen.ReferenceIdeal
import proofs.«140261_j72773925863488_2_alg».proof.Proof.Gen.ReferenceIdeal.Run
import proofs.«140261_j72773925863488_2_alg».proof.Proof.Gen.ReferenceIdeal.Read
import proofs.«140261_j72773925863488_2_alg».proof.Proof.Gen.Pre_finite_inputs
import proofs.«140261_j72773925863488_2_alg».proof.Proof.Spec
import proofs.«140261_j72773925863488_2_alg».proof.Proof.RefIsSpec
import proofs.«140261_j72773925863488_2_alg».proof.Proof.Result
import Idealize.ShloMosaic.Adequacy
import Idealize.ShloMosaic.Init

noncomputable section

namespace Cert.Proof

open Idealize.ShloMosaic Idealize.SL.Sem

/-- The kernel as printed runs, faults nowhere and leaves its arguments unchanged. -/
theorem frame_kernel : Cert.frame_Kernel := fun m ρ _ => Cert.Kernel.Gen.frame m ρ

/-- The same of the kernel read on the extended reals. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to state. -/
theorem preserves : Cert.preserves_Kernel_KernelIdeal := trivial

/-- On the extended reals the kernel's result array ends at the layer G of its arguments (`Result.run`) and the
    reference's at its operations' composed term, which is G of its arguments (`ref_eq_G`); the arguments agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefValue.ref_eq_G, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
